-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : FVec F S128x128 .f32) (main_arg2 : FVec F S128 .f32) (main_arg3 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S1x128 : Shape := ⟨2, ![1, 128]⟩
abbrev S5000x128 : Shape := ⟨2, ![5000, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S6800x128 : Shape := ⟨2, ![6800, 128]⟩
abbrev S6800x1 : Shape := ⟨2, ![6800, 1]⟩

abbrev nBuf : Space → Nat
  | .hbm => 55
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S2x800000, .i32⟩
  | .hbm, ⟨4, _⟩ => ⟨S128x128, .f32⟩
  | .hbm, ⟨5, _⟩ => ⟨S1x128, .f32⟩
  | .hbm, ⟨6, _⟩ => ⟨S50000x128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x128, .f32⟩
  | .hbm, ⟨49, _⟩ => ⟨S850000x1, .f32⟩
  | .hbm, ⟨50, _⟩ => ⟨S850000x128, .f32⟩
  | .hbm, ⟨51, _⟩ => ⟨S_, .f32⟩
  | .hbm, ⟨52, _⟩ => ⟨S50000x128, .f32⟩
  | .hbm, ⟨53, _⟩ => ⟨S850000x1, .i32⟩
  | .hbm, ⟨54, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S6800x128, .f32⟩
  | .local _ .vmem, ⟨7, _⟩ => ⟨S6800x128, .f32⟩
  | .local _ .vmem, ⟨8, _⟩ => ⟨S6800x1, .f32⟩
  | .local _ .vmem, ⟨9, _⟩ => ⟨S6800x1, .f32⟩
  | .local _ .vmem, ⟨10, _⟩ => ⟨S6800x128, .f32⟩
  | .local _ .vmem, ⟨11, _⟩ => ⟨S6800x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6800x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6800x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6800x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S850000_S850000x1 : S850000.ShapeCasts S850000x1
  inb_S6800x128_S6800x128_0_0 : ∀ a, (![0, 0] : Fin 2 → Nat) a + S6800x128.size a ≤ S6800x128.size a
  h_S6800x128 : 0 < S6800x128.numel
  shapeCasts_S6800x128_S6800x128 : S6800x128.ShapeCasts S6800x128
  inb_S6800x1_S6800x1_0_0 : ∀ a, (![0, 0] : Fin 2 → Nat) a + S6800x1.size a ≤ S6800x1.size a
  h_S6800x1 : 0 < S6800x1.numel
  shapeCasts_S6800x1_S6800x1 : S6800x1.ShapeCasts S6800x1
  broadcasts_S6800x1_S6800x128 : S6800x1.Broadcasts S6800x128
  bcast_S_S50000x128 : S_.BroadcastsInDim S50000x128 (![] : Fin 0 → Fin S50000x128.rank)
  dot_S5000x128_S128x128_S5000x128_1_0_0_1_n_n_wf : DotDims.WF S5000x128 S128x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6800x128.size a ≤ S850000x128.size a
  hwx1_0 : ∀ i : grid1.Coords, EltTy.bits .f32 = 32 ∨ (Rect.block (s := S850000x128) S6800x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6800x1.size a ≤ S850000x1.size a
  hwx1_1 : ∀ i : grid1.Coords, EltTy.bits .f32 = 32 ∨ (Rect.block (s := S850000x1) S6800x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6800x128.size a ≤ S850000x128.size a
  hwx1_2 : ∀ i : grid1.Coords, EltTy.bits .f32 = 32 ∨ (Rect.block (s := S850000x128) S6800x128.size (cc1_transform_2 i) (hinb1_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S6800x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S6800x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S6800x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S1x128 : Shape := ⟨2, ![1, 128]⟩
abbrev S_ : Shape := ⟨0, ![]⟩
abbrev S850000x1 : Shape := ⟨2, ![850000, 1]⟩
abbrev S850000x128 : Shape := ⟨2, ![850000, 128]⟩

abbrev nBuf : Space → Nat
  | .hbm => 58
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S2x800000, .i32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S128x128, .f32⟩
  | .hbm, ⟨12, _⟩ => ⟨S50000x128, .f32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x128, .f32⟩
  | .hbm, ⟨51, _⟩ => ⟨S850000x1, .f32⟩
  | .hbm, ⟨52, _⟩ => ⟨S850000x128, .f32⟩
  | .hbm, ⟨53, _⟩ => ⟨S850000x128, .f32⟩
  | .hbm, ⟨54, _⟩ => ⟨S_, .f32⟩
  | .hbm, ⟨55, _⟩ => ⟨S50000x128, .f32⟩
  | .hbm, ⟨56, _⟩ => ⟨S850000x1, .i32⟩
  | .hbm, ⟨57, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run, with its result named.

  @main is five segments: a stretch of host operations (the transpose of the weight matrix, the bias as a row), the
  first pallas_call (the linear layer, ten row blocks), a second stretch (the edge lists with their self loops, the
  degrees, the edge weights, the gathered rows), the second pallas_call (the messages scaled, 125 edge blocks), and a
  last stretch (the scatter-add of the messages into the nodes). The contents of the TensorCore's buffers at the
  five boundaries are the fold `W1 … W5`; every weakly fair execution ends with every unscoped buffer at `W5`, so
  the result buffer ends at `W5`'s value there, and the four argument arrays end as launched.
-/
import proofs.«146218_j27831388078276_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the result buffer at the last boundary's contents
    and the argument arrays as launched. -/
theorem run_boundary : θ_run defs (onTc (τ := τ) (main (F := F))) ⟨m, fun _ => 0, ρ⟩ (fun r => ∀ c : Dev nD,
      r.2.mem ((c.tc : Thread nD τ).loc main_v41) = W5 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v41 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.RunValue

end
-- ==== Proof.HostSide.lean ====
/-
  The graph side of the layer, as functions of the edge list.

  `edges` is a 2 × 800000 table of node numbers: row 0 the sources, row 1 the destinations. Each row gets the 50000
  self loops `0, 1, …, 49999` appended (`srcRow`, `dstRow`: 850000 entries). A node's degree is the number of
  entries of `dstRow` equal to it (a scatter-add of ones into zeros); an edge's weight is
  `rsqrt (degree (src) · degree (dst))`, the two degrees gathered at the row's entries with a negative entry wrapped
  around once by 50000; the messages are the rows of the transformed features gathered at the sources; and the layer's
  result is the scatter-add of the weighted messages into the destinations.
  Both programs compute every one of these with the same operations, so they are named here once.
-/
import proofs.«146218_j27831388078276_1_alg».proof.Proof.Gen.KernelIdeal

noncomputable section

namespace Cert.KernelIdeal.HostSide

open Cert.KernelIdeal Cert.KernelIdeal.Facts₀ Cert.KernelIdeal.Facts Idealize.ShloMosaic

variable {F : FTy → Type} [FloatOps F]

/-- One row of the edge list, flattened, with the self loops `0 … 49999` appended. -/
def withLoops (row : (⟨S1x800000, .i32⟩ : BufTy).Contents (Elt F)) : (⟨S850000, .i32⟩ : BufTy).Contents (Elt F) :=
  concatenate S850000 0 [⟨S800000, (shapeCast _ row shapeCasts_S1x800000_S800000)⟩, ⟨S50000, (iotaInDim S50000 32 0)⟩] concatenates_S800000_S50000_S850000_d0

/-- The sources of the 850000 edges. -/
def srcRow (e : (⟨S2x800000, .i32⟩ : BufTy).Contents (Elt F)) : (⟨S850000, .i32⟩ : BufTy).Contents (Elt F) :=
  withLoops (extractStridedSlice S1x800000 ![0, 0] e slices_S2x800000_S1x800000_0_0)

/-- The destinations of the 850000 edges. -/
def dstRow (e : (⟨S2x800000, .i32⟩ : BufTy).Contents (Elt F)) : (⟨S850000, .i32⟩ : BufTy).Contents (Elt F) :=
  withLoops (extractStridedSlice S1x800000 ![1, 0] e slices_S2x800000_S1x800000_1_0)

/-- A list of node numbers as a one-column table (the form scatter and gather take their indices in). -/
def asColumn (r : (⟨S850000, .i32⟩ : BufTy).Contents (Elt F)) : (⟨S850000x1, .i32⟩ : BufTy).Contents (Elt F) :=
  broadcastInDim S850000x1 ![0] bcast_S850000_S850000x1_0 r

/-- A negative node number counted from the end: `r + 50000` where `r < 0`, else `r`. -/
def wrapped (r : (⟨S850000, .i32⟩ : BufTy).Contents (Elt F)) : (⟨S850000, .i32⟩ : BufTy).Contents (Elt F) :=
  select (cmpi .slt r (broadcastInDim S850000 ![] bcast_S_S850000 (constantI S_ 32 0#32)))
    (addi r (broadcastInDim S850000 ![] bcast_S_S850000 (constantI S_ 32 50000#32))) r

/-- The degree of every node: ones added at the destinations. -/
def degree (e : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (asColumn (dstRow e))
    (broadcastInDim S850000 ![] bcast_S_S850000 (constant S_ .f32 0x3F800000#32))

/-- The weight of every edge: `rsqrt (degree (src) · degree (dst))`. -/
def weight (e : (⟨S2x800000, .i32⟩ : BufTy).Contents (Elt F)) : (⟨S850000, .f32⟩ : BufTy).Contents (Elt F) :=
  Host.rsqrt (mulf
    (Host.gather gather_S50000_S850000x1_S850000_n_0_n_n_0_1_1 (degree e) (asColumn (wrapped (srcRow e))))
    (Host.gather gather_S50000_S850000x1_S850000_n_0_n_n_0_1_1 (degree e) (asColumn (wrapped (dstRow e)))))

/-- The transformed features of every edge's source. -/
def gatherRows (H : (⟨S50000x128, .f32⟩ : BufTy).Contents (Elt F)) (e : (⟨S2x800000, .i32⟩ : BufTy).Contents (Elt F)) :
    (⟨S850000x128, .f32⟩ : BufTy).Contents (Elt F) :=
  Host.gather gather_S50000x128_S850000x1_S850000x128_1_0_n_n_0_1_1128 H (asColumn (wrapped (srcRow e)))

/-- The messages added up at their destinations. -/
def aggregate (e : (⟨S2x800000, .i32⟩ : BufTy).Contents (Elt F)) (M : (⟨S850000x128, .f32⟩ : BufTy).Contents (Elt F)) :
    (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (asColumn (dstRow e)) M

end Cert.KernelIdeal.HostSide

end
-- ==== Proof.KernelFold.lean ====
/-
  The buffers at the kernel's segment boundaries, read back.

  Through the first stretch of host operations the weight matrix is transposed and the bias made a row; the first
  pallas_call leaves its output array at what its ten write-backs fold to; the second stretch builds, from that
  array and the edge list, the gathered rows and the column of edge weights; the second pallas_call leaves its
  output array at what its 125 write-backs fold to; the last stretch adds the messages up at their destinations.
  No operation and no region writes an argument, so the edge list is the launched one at every boundary.
-/
import proofs.«146218_j27831388078276_1_alg».proof.Proof.Gen.KernelIdeal.Frame
import proofs.«146218_j27831388078276_1_alg».proof.Proof.HostSide
import Idealize.ShloMosaic.Lib.StableHlo.Run

set_option maxRecDepth 16384

noncomputable section

namespace Cert.KernelIdeal.Fold

open Cert.KernelIdeal Cert.KernelIdeal.Gen Cert.KernelIdeal.HostSide
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## Region 0's entry -/

theorem W1_arg0 (c : Dev nD) : W1 m ρ c (Proc.devRef .tc main_arg0) = m ((c.tc : Thread nD τ).loc main_arg0) := by
  show StableHlo.after hostOps0 (W0 m ρ c) (Proc.devRef .tc main_arg0) = _
  after_results <;> rfl

theorem W1_arg3 (c : Dev nD) : W1 m ρ c (Proc.devRef .tc main_arg3) = m ((c.tc : Thread nD τ).loc main_arg3) := by
  show StableHlo.after hostOps0 (W0 m ρ c) (Proc.devRef .tc main_arg3) = _
  after_results <;> rfl

/-- The weight matrix transposed. -/
theorem W1_v0 (c : Dev nD) : W1 m ρ c (Proc.devRef .tc main_v0)
    = transpose S128x128 [1, 0] (m ((c.tc : Thread nD τ).loc main_arg1)) Facts₀.transposes_S128x128_S128x128_1_0 := by
  show StableHlo.after hostOps0 (W0 m ρ c) (Proc.devRef .tc main_v0) = _
  after_results <;> rfl

/-- The bias as a one-row table. -/
theorem W1_v1 (c : Dev nD) : W1 m ρ c (Proc.devRef .tc main_v1)
    = shapeCast _ (m ((c.tc : Thread nD τ).loc main_arg2)) Facts₀.shapeCasts_S128_S1x128 := by
  show StableHlo.after hostOps0 (W0 m ρ c) (Proc.devRef .tc main_v1) = _
  after_results <;> rfl

/-! ## Region 0's exit -/

theorem W2_v2 (c : Dev nD) : W2 m ρ c (Proc.devRef .tc main_v2) = (dat0 (V1 m ρ) c).arrAt 3 cfg0.N := W2_arr m ρ c 3

theorem W2_arg3 (c : Dev nD) : W2 m ρ c (Proc.devRef .tc main_arg3) = m ((c.tc : Thread nD τ).loc main_arg3) :=
  (W2_of_ne m ρ c main_arg3 (by decide)).trans (W1_arg3 m ρ c)

/-! ## Region 1's entry -/

/-- The rows of region 0's array gathered at the edges' sources. -/
theorem W3_v36 (c : Dev nD) : W3 m ρ c (Proc.devRef .tc main_v36)
    = gatherRows (W2 m ρ c (Proc.devRef .tc main_v2)) (W2 m ρ c (Proc.devRef .tc main_arg3)) := by
  show StableHlo.after hostOps1 (W2 m ρ c) (Proc.devRef .tc main_v36) = _
  after_results_simp <;> rfl

/-- The edge weights as a one-column table. -/
theorem W3_v37 (c : Dev nD) : W3 m ρ c (Proc.devRef .tc main_v37)
    = shapeCast _ (weight (W2 m ρ c (Proc.devRef .tc main_arg3))) Facts₀.shapeCasts_S850000_S850000x1 := by
  show StableHlo.after hostOps1 (W2 m ρ c) (Proc.devRef .tc main_v37) = _
  after_results_simp <;> rfl

/-- The edges' destinations. -/
theorem W3_v9 (c : Dev nD) : W3 m ρ c (Proc.devRef .tc main_v9) = dstRow (W2 m ρ c (Proc.devRef .tc main_arg3)) := by
  show StableHlo.after hostOps1 (W2 m ρ c) (Proc.devRef .tc main_v9) = _
  after_results_simp <;> rfl

/-! ## Region 1's exit -/

theorem W4_v38 (c : Dev nD) : W4 m ρ c (Proc.devRef .tc main_v38) = (dat1 (V3 m ρ) c).arrAt 2 cfg1.N := W4_arr m ρ c 2

theorem W4_v9 (c : Dev nD) : W4 m ρ c (Proc.devRef .tc main_v9) = W3 m ρ c (Proc.devRef .tc main_v9) :=
  W4_of_ne m ρ c main_v9 (by decide)

/-! ## The return -/

/-- The result: region 1's array added up at the edges' destinations. -/
theorem W5_v41 (c : Dev nD) : W5 m ρ c (Proc.devRef .tc main_v41)
    = aggregate (m ((c.tc : Thread nD τ).loc main_arg3)) ((dat1 (V3 m ρ) c).arrAt 2 cfg1.N) := by
  have h : W5 m ρ c (Proc.devRef .tc main_v41)
      = Host.scatterAdd scatter_S50000x128_S850000x1_S850000x128_1_0_0_1
          (broadcastInDim S50000x128 ![] Facts₀.bcast_S_S50000x128 (constant S_ .f32 0x00000000#32))
          (asColumn (W4 m ρ c (Proc.devRef .tc main_v9))) (W4 m ρ c (Proc.devRef .tc main_v38)) := by
    show StableHlo.after hostOps2 (W4 m ρ c) (Proc.devRef .tc main_v41) = _
    after_results <;> rfl
  rw [h, W4_v9, W3_v9, W2_arg3, W4_v38]
  rfl

end Cert.KernelIdeal.Fold

end
-- ==== Proof.Payloads.lean ====
/-
  What the two kernel bodies store, entry by entry, on the extended reals.

  The linear body stores, at row p and column q of its 5000 × 128 block, the sum over k of (feature block) (p, k) ·
  (transposed weights) (k, q) — the matrix product into a zero accumulator; the two roundings to bf16 before it are
  the identity on the extended reals — plus the bias row's entry (0, q), broadcast down the rows.
  The scaling body stores (message block) (p, q) · (weight column) (p, 0), the column broadcast along the rows.
-/
import proofs.«146218_j27831388078276_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx

/-! ## The block product's index maps: the left operand is read along its row, the right along its column -/

theorem lhs_row (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
theorem rhs_contr (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
theorem rhs_col (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The linear body -/

/-- Entry (p, q) of the linear body's block: the row of features against the column of transposed weights, plus the bias. -/
theorem linear_pay (x0 : FVec Ideal S5000x128 .f32) (x1 : FVec Ideal S128x128 .f32) (x2 : FVec Ideal S1x128 .f32)
    (p : Fin 5000) (q : Fin 128) :
    k0_pay1 (F := Ideal) x0 x1 x2 (ix2 p q) = (∑ k : Fin 128, x0 (ix2 p k) * x1 (ix2 k q)) + x2 (ix2 (0 : Fin 1) q) := by
  unfold k0_pay1
  rw [addf_apply, shapeCast_self, shapeCast_self]
  refine congrArg₂ (· + ·) ?_ ?_
  · refine (Ideal.matmul_constant_zero_apply dot_S5000x128_S128x128_S5000x128_1_0_0_1_n_n none _ _ (ix2 p q)).trans ?_
    rw [← Equiv.sum_comp (contrEquiv1 dot_S5000x128_S128x128_S5000x128_1_0_0_1_n_n 128 rfl rfl).symm]
    refine Finset.sum_congr rfl fun k _ => ?_
    have hk := contrEquiv1_symm_val dot_S5000x128_S128x128_S5000x128_1_0_0_1_n_n 128 rfl rfl k
    have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
      match a with
      | ⟨0, _⟩ => exact lhs_row _ _
      | ⟨1, _⟩ => exact (lhs_contr _ _).trans hk)
    have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
      match a with
      | ⟨0, _⟩ => exact (rhs_contr _ _).trans hk
      | ⟨1, _⟩ => exact rhs_col _ _)
    rw [el, er]
    rfl
  · exact broadcastTo_apply x2 _ (ix2 p q) (ix2 (0 : Fin 1) q) (fun a => match a with
      | ⟨0, _⟩ => by show (0 : Nat) = if (1 : Nat) = 1 then 0 else p.val; rw [if_pos rfl]
      | ⟨1, _⟩ => by show q.val = if (128 : Nat) = 1 then 0 else q.val; rw [if_neg (by decide)])

/-! ## The scaling body -/

/-- Entry (p, q) of the scaling body's block: the message entry times its row's weight. -/
theorem scale_pay (x0 : FVec Ideal S6800x128 .f32) (x1 : FVec Ideal S6800x1 .f32) (p : Fin 6800) (q : Fin 128) :
    k1_pay1 (F := Ideal) x0 x1 (ix2 p q) = x0 (ix2 p q) * x1 (ix2 p (0 : Fin 1)) := by
  unfold k1_pay1
  rw [mulf_apply, shapeCast_self, shapeCast_self]
  refine congrArg (x0 (ix2 p q) * ·) ?_
  exact broadcastTo_apply x1 _ (ix2 p q) (ix2 p (0 : Fin 1)) (fun a => match a with
      | ⟨0, _⟩ => by show p.val = if (6800 : Nat) = 1 then 0 else p.val; rw [if_neg (by decide)]
      | ⟨1, _⟩ => by show (0 : Nat) = if (1 : Nat) = 1 then 0 else q.val; rw [if_pos rfl])

end Cert.KernelIdeal.Payloads

end
-- ==== Proof.LayerSpec.lean ====
/-
  The two dense steps of the layer, as functions of whole arrays, index by index, on the extended reals.

  `linear A Wt b` is the transformed feature table: entry (p, q) is the sum over k of A (p, k) · Wt (k, q), plus the
  bias b (0, q) — the features times the transposed weight matrix, the bias (a one-row table) added to every row.
  `scaled X e` is the message table: row p of X times the p-th edge weight e (p, 0) (a one-column table).
  Nothing here needs the entries to be finite: each side of the certificate computes these same sums and products.
-/
import Idealize.ShloMosaic.PureOps.Ideal
import Idealize.ShloMosaic.Lib.ValueIdx

noncomputable section

namespace Cert.LayerSpec

open Idealize.ShloMosaic Idealize.ShloMosaic.ValueIdx

/-- Entry (p, q) of the transformed features. -/
def linearAt (A : FVec Ideal ⟨2, ![50000, 128]⟩ .f32) (Wt : FVec Ideal ⟨2, ![128, 128]⟩ .f32) (b : FVec Ideal ⟨2, ![1, 128]⟩ .f32)
    (p : Fin 50000) (q : Fin 128) : EReal :=
  (∑ k : Fin 128, A (ix2 p k) * Wt (ix2 k q)) + b (ix2 (0 : Fin 1) q)

/-- The transformed features: `A · Wt + b`. -/
def linear (A : FVec Ideal ⟨2, ![50000, 128]⟩ .f32) (Wt : FVec Ideal ⟨2, ![128, 128]⟩ .f32) (b : FVec Ideal ⟨2, ![1, 128]⟩ .f32) :
    FVec Ideal ⟨2, ![50000, 128]⟩ .f32 :=
  fun i => linearAt A Wt b ⟨(i 0).val, idx2_lt0 i⟩ ⟨(i 1).val, idx2_lt1 i⟩

theorem linear_ix2 (A : FVec Ideal ⟨2, ![50000, 128]⟩ .f32) (Wt : FVec Ideal ⟨2, ![128, 128]⟩ .f32) (b : FVec Ideal ⟨2, ![1, 128]⟩ .f32)
    (p : Fin 50000) (q : Fin 128) : linear A Wt b (ix2 p q) = linearAt A Wt b p q := rfl

/-- Entry (p, q) of the weighted messages. -/
def scaledAt (X : FVec Ideal ⟨2, ![850000, 128]⟩ .f32) (e : FVec Ideal ⟨2, ![850000, 1]⟩ .f32) (p : Fin 850000) (q : Fin 128) : EReal :=
  X (ix2 p q) * e (ix2 p (0 : Fin 1))

/-- The weighted messages: every row times its edge's weight. -/
def scaled (X : FVec Ideal ⟨2, ![850000, 128]⟩ .f32) (e : FVec Ideal ⟨2, ![850000, 1]⟩ .f32) : FVec Ideal ⟨2, ![850000, 128]⟩ .f32 :=
  fun i => scaledAt X e ⟨(i 0).val, idx2_lt0 i⟩ ⟨(i 1).val, idx2_lt1 i⟩

theorem scaled_ix2 (X : FVec Ideal ⟨2, ![850000, 128]⟩ .f32) (e : FVec Ideal ⟨2, ![850000, 1]⟩ .f32) (p : Fin 850000) (q : Fin 128) :
    scaled X e (ix2 p q) = scaledAt X e p q := rfl

end Cert.LayerSpec

end
-- ==== Proof.LinearRegion.lean ====
/-
  The first pallas_call's output array: the linear layer of whatever arrays it is entered with.

  The grid has ten points. Point t reads rows 5000·t … 5000·t + 4999 of the features (window 0), the whole transposed
  weight matrix (window 1) and the whole bias row (window 2), and writes back rows 5000·t … 5000·t + 4999 of the output
  (window 3). What it writes back is, entry by entry, the linear layer of the three whole arrays at that entry's place
  in the output; the ten blocks tile the 50000 rows (row r is in the block of point r / 5000); so the output array
  ends as the linear layer of the three arrays.
-/
import proofs.«146218_j27831388078276_1_alg».proof.Proof.Gen.KernelIdeal.Frame
import proofs.«146218_j27831388078276_1_alg».proof.Proof.Payloads
import proofs.«146218_j27831388078276_1_alg».proof.Proof.LayerSpec
import Idealize.ShloMosaic.Lib.Pipeline.Value

set_option maxRecDepth 16384

noncomputable section

namespace Cert.KernelIdeal.LinearRegion

open Cert.KernelIdeal Cert.KernelIdeal.Gen Cert.LayerSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the feature and output blocks at block row t, the weights and the bias
    at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block is row 5000·t + p of the array. -/
def rowOf (t : Fin cfg0.N) (p : Fin 5000) : Fin 50000 :=
  ⟨5000 * t.val + p.val, by have := t.isLt; have hN : cfg0.N = 10 := N_0; have := p.isLt; omega⟩

/-- The feature block at point t is rows 5000·t … of the feature array. -/
theorem feat_blk (c : Dev nD) (t : Fin cfg0.N) (p : Fin 5000) (k : Fin 128) :
    (iblk0 V c 0 t : FVec Ideal S5000x128 .f32) (ix2 p k) = (V c main_arg0 : FVec Ideal S50000x128 .f32) (ix2 (rowOf t p) k) := by
  obtain ⟨h0, h1, -⟩ := idx_facts t
  unfold iblk0
  rw [View.read_apply]
  show V c main_arg0 _ = V c main_arg0 _
  congr 1
  funext a
  apply Fin.ext
  match a with
  | ⟨0, _⟩ => show win0_0.index t 0 * 5000 + 1 * p.val = 5000 * t.val + p.val; rw [h0]; omega
  | ⟨1, _⟩ => show win0_0.index t 1 * 128 + 1 * k.val = k.val; rw [h1]; omega

/-- The weight block at every point is the whole transposed weight matrix. -/
theorem wt_blk (c : Dev nD) (t : Fin cfg0.N) (k : Fin 128) (q : Fin 128) :
    (iblk0 V c 1 t : FVec Ideal S128x128 .f32) (ix2 k q) = (V c main_v0 : FVec Ideal S128x128 .f32) (ix2 k q) := by
  obtain ⟨-, -, h0, h1, -⟩ := idx_facts t
  unfold iblk0
  rw [View.read_apply]
  show V c main_v0 _ = V c main_v0 _
  congr 1
  funext a
  apply Fin.ext
  match a with
  | ⟨0, _⟩ => show win0_1.index t 0 * 128 + 1 * k.val = k.val; rw [h0]; omega
  | ⟨1, _⟩ => show win0_1.index t 1 * 128 + 1 * q.val = q.val; rw [h1]; omega

/-- The bias block at every point is the whole bias row. -/
theorem bias_blk (c : Dev nD) (t : Fin cfg0.N) (q : Fin 128) :
    (iblk0 V c 2 t : FVec Ideal S1x128 .f32) (ix2 (0 : Fin 1) q) = (V c main_v1 : FVec Ideal S1x128 .f32) (ix2 (0 : Fin 1) q) := by
  obtain ⟨-, -, -, -, h0, h1, -⟩ := idx_facts t
  unfold iblk0
  rw [View.read_apply]
  show V c main_v1 _ = V c main_v1 _
  congr 1
  funext a
  apply Fin.ext
  match a with
  | ⟨0, _⟩ => show win0_2.index t 0 * 1 + 1 * 0 = 0; rw [h0]
  | ⟨1, _⟩ => show win0_2.index t 1 * 128 + 1 * q.val = q.val; rw [h1]; omega

/-- What point t writes back is block t of the linear layer of the three arrays. -/
theorem flushed_eq (c : Dev nD) (t : Fin cfg0.N) :
    (dat0 V c).flushed 3 t
      = ((cfg0.win 3).blk t).view.read (Elt Ideal) (linear (V c main_arg0) (V c main_v0) (V c main_v1)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  have e : ((cfg0.win 3).blk t).view.emb (ix2 p q) = ix2 (rowOf t p) q := by
    obtain ⟨-, -, -, -, -, -, h0, h1⟩ := idx_facts t
    funext a
    apply Fin.ext
    match a with
    | ⟨0, _⟩ => show win0_3.index t 0 * 5000 + 1 * p.val = 5000 * t.val + p.val; rw [h0]; omega
    | ⟨1, _⟩ => show win0_3.index t 1 * 128 + 1 * q.val = q.val; rw [h1]; omega
  show k0_pay1 (iblk0 V c 0 t) (iblk0 V c 1 t) (iblk0 V c 2 t) (ix2 p q)
    = linear (V c main_arg0) (V c main_v0) (V c main_v1) (((cfg0.win 3).blk t).view.emb (ix2 p q))
  rw [e, linear_ix2]
  refine (Payloads.linear_pay _ _ _ p q).trans ?_
  unfold linearAt
  refine congrArg₂ (· + ·) (Finset.sum_congr rfl fun k _ => ?_) (bias_blk V c t q)
  rw [feat_blk V c t p k, wt_blk V c t k q]

/-- An index of the output array is in point t's block iff its row is among the block's rows (and its column among the
    128 columns). -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v2).slice (win0_3.rect t)).set ↔ _
  rw [View.set_slice_whole, Rect.mem_set_unit]
  exact Iff.rfl

/-- Every index of the output array is in the block of the point its row falls in. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, h0, h1⟩ := idx_facts t
  refine ⟨t, flush0_3 t, ?_⟩
  rw [mem_blk]
  intro a
  match a with
  | ⟨0, _⟩ => show win0_3.index t 0 * 5000 ≤ (i 0).val ∧ (i 0).val < win0_3.index t 0 * 5000 + 5000; rw [h0, ht]; omega
  | ⟨1, _⟩ => show win0_3.index t 1 * 128 ≤ (i 1).val ∧ (i 1).val < win0_3.index t 1 * 128 + 128; rw [h1]; omega

/-- THE OUTPUT ARRAY after the region: the linear layer of the arrays the region is entered with. -/
theorem final (c : Dev nD) :
    (dat0 V c).arrAt 3 cfg0.N = linear (V c main_arg0) (V c main_v0) (V c main_v1) :=
  (dat0 V c).arrAt_eq_of_cover 3 (linear (V c main_arg0) (V c main_v0) (V c main_v1)) (fun t _ => flushed_eq V c t) cover

end Cert.KernelIdeal.LinearRegion

end
-- ==== Proof.ScaleRegion.lean ====
/-
  The second pallas_call's output array: the weighted messages of whatever arrays it is entered with.

  The grid has 125 points. Point t reads rows 6800·t … 6800·t + 6799 of the message table (window 0) and the same rows
  of the one-column weight table (window 1), and writes back the same rows of the output (window 2): every message
  entry times its row's weight. The 125 blocks tile the 850000 rows (row r is in the block of point r / 6800), so the
  output array ends as the message table with every row scaled by its weight.
-/
import proofs.«146218_j27831388078276_1_alg».proof.Proof.Gen.KernelIdeal.Frame
import proofs.«146218_j27831388078276_1_alg».proof.Proof.Payloads
import proofs.«146218_j27831388078276_1_alg».proof.Proof.LayerSpec
import Idealize.ShloMosaic.Lib.Pipeline.Value

set_option maxRecDepth 16384

noncomputable section

namespace Cert.KernelIdeal.ScaleRegion

open Cert.KernelIdeal Cert.KernelIdeal.Gen Cert.LayerSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: all three at block row t. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row p of point t's block is row 6800·t + p of the array. -/
def rowOf (t : Fin cfg1.N) (p : Fin 6800) : Fin 850000 :=
  ⟨6800 * t.val + p.val, by have := t.isLt; have hN : cfg1.N = 125 := N_1; have := p.isLt; omega⟩

/-- The message block at point t is rows 6800·t … of the message table. -/
theorem msg_blk (c : Dev nD) (t : Fin cfg1.N) (p : Fin 6800) (q : Fin 128) :
    (iblk1 V c 0 t : FVec Ideal S6800x128 .f32) (ix2 p q) = (V c main_v36 : FVec Ideal S850000x128 .f32) (ix2 (rowOf t p) q) := by
  obtain ⟨h0, h1, -⟩ := idx_facts t
  unfold iblk1
  rw [View.read_apply]
  show V c main_v36 _ = V c main_v36 _
  congr 1
  funext a
  apply Fin.ext
  match a with
  | ⟨0, _⟩ => show win1_0.index t 0 * 6800 + 1 * p.val = 6800 * t.val + p.val; rw [h0]; omega
  | ⟨1, _⟩ => show win1_0.index t 1 * 128 + 1 * q.val = q.val; rw [h1]; omega

/-- The weight block at point t is rows 6800·t … of the weight column. -/
theorem wt_blk (c : Dev nD) (t : Fin cfg1.N) (p : Fin 6800) :
    (iblk1 V c 1 t : FVec Ideal S6800x1 .f32) (ix2 p (0 : Fin 1)) = (V c main_v37 : FVec Ideal S850000x1 .f32) (ix2 (rowOf t p) (0 : Fin 1)) := by
  obtain ⟨-, -, h0, h1, -⟩ := idx_facts t
  unfold iblk1
  rw [View.read_apply]
  show V c main_v37 _ = V c main_v37 _
  congr 1
  funext a
  apply Fin.ext
  match a with
  | ⟨0, _⟩ => show win1_1.index t 0 * 6800 + 1 * p.val = 6800 * t.val + p.val; rw [h0]; omega
  | ⟨1, _⟩ => show win1_1.index t 1 * 1 + 1 * 0 = 0; rw [h1]

/-- What point t writes back is block t of the weighted messages of the two arrays. -/
theorem flushed_eq (c : Dev nD) (t : Fin cfg1.N) :
    (dat1 V c).flushed 2 t = ((cfg1.win 2).blk t).view.read (Elt Ideal) (scaled (V c main_v36) (V c main_v37)) := by
  show (cfg1.win 2).cut (grid1.coords t) ((dat1 V c).after 2 t) = _
  rw [after1_2]
  unfold out1_2
  rw [View.canon_unit_zero hz]
  simp only [View.ld_unit_zero (S := S6800x128) hz, View.ld_unit_zero (S := S6800x1) hz]
  refine funext fun (j : S6800x128.Idx) => ?_
  obtain ⟨p, q, rfl⟩ : ∃ (p : Fin 6800) (q : Fin 128), j = ix2 p q := ⟨j 0, j 1, eq_ix2 j⟩
  have e : ((cfg1.win 2).blk t).view.emb (ix2 p q) = ix2 (rowOf t p) q := by
    obtain ⟨-, -, -, -, h0, h1⟩ := idx_facts t
    funext a
    apply Fin.ext
    match a with
    | ⟨0, _⟩ => show win1_2.index t 0 * 6800 + 1 * p.val = 6800 * t.val + p.val; rw [h0]; omega
    | ⟨1, _⟩ => show win1_2.index t 1 * 128 + 1 * q.val = q.val; rw [h1]; omega
  show k1_pay1 (iblk1 V c 0 t) (iblk1 V c 1 t) (ix2 p q)
    = scaled (V c main_v36) (V c main_v37) (((cfg1.win 2).blk t).view.emb (ix2 p q))
  rw [e, scaled_ix2]
  refine (Payloads.scale_pay _ _ p q).trans ?_
  unfold scaledAt
  rw [msg_blk V c t p q, wt_blk V c t p]

/-- An index of the output array is in point t's block iff its row is among the block's rows. -/
theorem mem_blk (t : Fin cfg1.N) (i : S850000x128.Idx) :
    i ∈ ((cfg1.win 2).blk t).view.set ↔ ∀ a : Fin 2, win1_2.index t a * S6800x128.size a ≤ (i a).val ∧ (i a).val < win1_2.index t a * S6800x128.size a + S6800x128.size a := by
  show i ∈ ((View.whole main_v38).slice (win1_2.rect t)).set ↔ _
  rw [View.set_slice_whole, Rect.mem_set_unit]
  exact Iff.rfl

/-- Every index of the output array is in the block of the point its row falls in. -/
theorem cover (i : S850000x128.Idx) : ∃ t : Fin cfg1.N, (cfg1.win 2).flush t = true ∧ i ∈ ((cfg1.win 2).blk t).view.set := by
  have hi0 : (i 0).val < 850000 := (i 0).isLt
  have hi1 : (i 1).val < 128 := (i 1).isLt
  have hN : cfg1.N = 125 := N_1
  obtain ⟨t, ht⟩ : ∃ t : Fin cfg1.N, t.val = (i 0).val / 6800 := ⟨⟨(i 0).val / 6800, by rw [hN]; omega⟩, rfl⟩
  obtain ⟨-, -, -, -, h0, h1⟩ := idx_facts t
  refine ⟨t, flush1_2 t, ?_⟩
  rw [mem_blk]
  intro a
  match a with
  | ⟨0, _⟩ => show win1_2.index t 0 * 6800 ≤ (i 0).val ∧ (i 0).val < win1_2.index t 0 * 6800 + 6800; rw [h0, ht]; omega
  | ⟨1, _⟩ => show win1_2.index t 1 * 128 ≤ (i 1).val ∧ (i 1).val < win1_2.index t 1 * 128 + 128; rw [h1]; omega

/-- THE OUTPUT ARRAY after the region: the weighted messages of the arrays the region is entered with. -/
theorem final (c : Dev nD) :
    (dat1 V c).arrAt 2 cfg1.N = scaled (V c main_v36) (V c main_v37) :=
  (dat1 V c).arrAt_eq_of_cover 2 (scaled (V c main_v36) (V c main_v37)) (fun t _ => flushed_eq V c t) cover

end Cert.KernelIdeal.ScaleRegion

end
-- ==== Proof.Layer.lean ====
/-
  The layer as one function of its four arguments.

  `layer h W b edges`: the features times the transposed weights plus the bias; its rows gathered at the edges'
  sources; every gathered row scaled by its edge's weight `rsqrt (degree (src) · degree (dst))`; the scaled rows added up
  at the edges' destinations. The two dense steps are the whole-array functions `linear` and `scaled`; the graph steps
  are the host operations both programs apply.
-/
import proofs.«146218_j27831388078276_1_alg».proof.Proof.HostSide
import proofs.«146218_j27831388078276_1_alg».proof.Proof.LayerSpec

noncomputable section

namespace Cert.KernelIdeal.Whole

open Cert.KernelIdeal Cert.KernelIdeal.HostSide Cert.LayerSpec Idealize.ShloMosaic

/-- The layer: dense steps as whole-array functions, graph steps as the shared host operations. -/
def layer (h : (⟨S50000x128, .f32⟩ : BufTy).Contents (Elt Ideal)) (W : (⟨S128x128, .f32⟩ : BufTy).Contents (Elt Ideal))
    (b : (⟨S128, .f32⟩ : BufTy).Contents (Elt Ideal)) (e : (⟨S2x800000, .i32⟩ : BufTy).Contents (Elt Ideal)) :
    (⟨S50000x128, .f32⟩ : BufTy).Contents (Elt Ideal) :=
  aggregate e (scaled
    (gatherRows (linear h (transpose S128x128 [1, 0] W Facts₀.transposes_S128x128_S128x128_1_0) (shapeCast _ b Facts₀.shapeCasts_S128_S1x128)) e)
    (shapeCast _ (weight e) Facts₀.shapeCasts_S850000_S850000x1))

end Cert.KernelIdeal.Whole

end
-- ==== Proof.KernelValue.lean ====
/-
  The idealized kernel's result as one function of its four arguments.

  `layer h W b edges`: the features times the transposed weights plus the bias (the first pallas_call), its rows
  gathered at the edges' sources, every gathered row scaled by its edge's weight (the second pallas_call), and the
  scaled rows added up at the edges' destinations. Each pallas_call's output array is its dense step of the arrays the
  region is entered with; those arrays are read back through the host operations before the region to the arguments.
-/
import proofs.«146218_j27831388078276_1_alg».proof.Proof.KernelRun
import proofs.«146218_j27831388078276_1_alg».proof.Proof.KernelFold
import proofs.«146218_j27831388078276_1_alg».proof.Proof.LinearRegion
import proofs.«146218_j27831388078276_1_alg».proof.Proof.ScaleRegion
import proofs.«146218_j27831388078276_1_alg».proof.Proof.Layer

set_option maxRecDepth 16384

noncomputable section

namespace Cert.KernelIdeal.Whole

open Cert.KernelIdeal Cert.KernelIdeal.Gen Cert.KernelIdeal.HostSide Cert.LayerSpec
open Idealize.ShloMosaic Idealize.ShloMosaic.TcCoe Idealize.SL.Sem

variable (m : (ℓ : Loc nD τ sig) → Buf (Elt Ideal) ℓ) (ρ : Dev nD → PrngReg)

/-- Region 0 is entered with the launched features, the transposed weights and the bias row. -/
theorem entry0 (c : Dev nD) :
    linear (V1 m ρ c main_arg0) (V1 m ρ c main_v0) (V1 m ρ c main_v1)
      = linear (m ((c.tc : Thread nD τ).loc main_arg0))
          (transpose S128x128 [1, 0] (m ((c.tc : Thread nD τ).loc main_arg1)) Facts₀.transposes_S128x128_S128x128_1_0)
          (shapeCast _ (m ((c.tc : Thread nD τ).loc main_arg2)) Facts₀.shapeCasts_S128_S1x128) :=
  congr (congr (congrArg linear (Fold.W1_arg0 m ρ c)) (Fold.W1_v0 m ρ c)) (Fold.W1_v1 m ρ c)

/-- So region 0 leaves the transformed features of the launched arguments. -/
theorem features (c : Dev nD) : W2 m ρ c (Proc.devRef .tc main_v2)
    = linear (m ((c.tc : Thread nD τ).loc main_arg0))
        (transpose S128x128 [1, 0] (m ((c.tc : Thread nD τ).loc main_arg1)) Facts₀.transposes_S128x128_S128x128_1_0)
        (shapeCast _ (m ((c.tc : Thread nD τ).loc main_arg2)) Facts₀.shapeCasts_S128_S1x128) :=
  (Fold.W2_v2 m ρ c).trans ((LinearRegion.final (V1 m ρ) c).trans (entry0 m ρ c))

/-- Region 1 is entered with those features gathered at the edges' sources … -/
theorem entry1_rows (c : Dev nD) : V3 m ρ c main_v36
    = gatherRows (linear (m ((c.tc : Thread nD τ).loc main_arg0))
        (transpose S128x128 [1, 0] (m ((c.tc : Thread nD τ).loc main_arg1)) Facts₀.transposes_S128x128_S128x128_1_0)
        (shapeCast _ (m ((c.tc : Thread nD τ).loc main_arg2)) Facts₀.shapeCasts_S128_S1x128)) (m ((c.tc : Thread nD τ).loc main_arg3)) :=
  (Fold.W3_v36 m ρ c).trans (congr (congrArg gatherRows (features m ρ c)) (Fold.W2_arg3 m ρ c))

/-- … and with the column of edge weights. -/
theorem entry1_weights (c : Dev nD) : V3 m ρ c main_v37
    = shapeCast _ (weight (m ((c.tc : Thread nD τ).loc main_arg3))) Facts₀.shapeCasts_S850000_S850000x1 :=
  (Fold.W3_v37 m ρ c).trans (congrArg (fun e => shapeCast _ (weight e) Facts₀.shapeCasts_S850000_S850000x1) (Fold.W2_arg3 m ρ c))

/-- The last boundary's contents at the result buffer is the layer of the launched arguments. -/
theorem result_eq (c : Dev nD) : W5 m ρ c (Proc.devRef .tc main_v41)
    = layer (m ((c.tc : Thread nD τ).loc main_arg0)) (m ((c.tc : Thread nD τ).loc main_arg1))
        (m ((c.tc : Thread nD τ).loc main_arg2)) (m ((c.tc : Thread nD τ).loc main_arg3)) :=
  (Fold.W5_v41 m ρ c).trans (congrArg (aggregate (m ((c.tc : Thread nD τ).loc main_arg3)))
    ((ScaleRegion.final (V3 m ρ) c).trans (congr (congrArg scaled (entry1_rows m ρ c)) (entry1_weights m ρ c))))

/-- Every weakly fair execution of the idealized kernel terminates without a fault, its result the layer of its
    arguments, the arguments unchanged. -/
theorem run : θ_run defs (onTc (τ := τ) (main (F := Ideal))) ⟨m, fun _ => 0, ρ⟩ (fun r => ∀ c : Dev nD,
      r.2.mem ((c.tc : Thread nD τ).loc main_v41)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (RunValue.run_boundary m ρ)

end Cert.KernelIdeal.Whole

end
-- ==== Proof.ReferenceValue.lean ====
/-
  The idealized reference's result is the same function of the four arguments.

  The reference's graph steps are, operation for operation, the shared ones (the edge rows with their self loops,
  the degrees, the weights, the gather at the sources, the scatter-add at the destinations). Its dense steps differ
  from the kernel's only in form: the features as one matrix product with the transposed weights plus the bias
  broadcast to every row — at every entry the same sum over k of A (p, k) · Wt (k, q), plus b q —; the messages as an
  elementwise product with the weights broadcast along the rows — at every entry X (p, q) · w p.
-/
import proofs.«146218_j27831388078276_1_alg».proof.Proof.Gen.ReferenceIdeal.Read
import proofs.«146218_j27831388078276_1_alg».proof.Proof.Layer
import Idealize.ShloMosaic.Lib.ValueLayout

noncomputable section

namespace Cert.ReferenceIdeal.RefValue

open Cert.ReferenceIdeal Cert.ReferenceIdeal.Read Cert.LayerSpec
open Idealize.ShloMosaic Idealize.ShloMosaic.ValueIdx Idealize.ShloMosaic.TcCoe Idealize.SL.Sem
open Cert.KernelIdeal.HostSide (weight gatherRows aggregate)

/-! ## The graph steps are the shared ones -/

theorem weight_eq (e : (⟨S2x800000, .i32⟩ : BufTy).Contents (Elt Ideal)) : val_main_v31 (F := Ideal) e = weight e := rfl

theorem gather_eq (H : (⟨S50000x128, .f32⟩ : BufTy).Contents (Elt Ideal)) (e : (⟨S2x800000, .i32⟩ : BufTy).Contents (Elt Ideal)) :
    Host.gather gather_S50000x128_S850000x1_S850000x128_1_0_n_n_0_1_1128 H (val_main_v37 (F := Ideal) e) = gatherRows H e := rfl

theorem aggregate_eq (e : (⟨S2x800000, .i32⟩ : BufTy).Contents (Elt Ideal)) (M : (⟨S850000x128, .f32⟩ : BufTy).Contents (Elt Ideal)) :
    Host.scatterAdd (F := Ideal) (φ := .f32) scatter_S50000x128_S850000x1_S850000x128_1_0_0_1 (val_main_v42 (F := Ideal)) (val_main_v43 (F := Ideal) e) M = aggregate e M := rfl

/-! ## The dense steps, entry by entry -/

/-- A list as a one-column table reads, at (p, 0), the list at p. -/
theorem column_apply {α : Type} (w : (⟨1, ![850000]⟩ : Shape).Idx → α) (h : (⟨1, ![850000]⟩ : Shape).ShapeCasts ⟨2, ![850000, 1]⟩)
    (p : Fin 850000) : shapeCast ⟨2, ![850000, 1]⟩ w h (ix2 p (0 : Fin 1)) = w (ix1 p) :=
  shapeCast_apply w h _ _ (by
    rw [Shape.rowMajor_val_two, Shape.rowMajor_val_one]
    show p.val = p.val * 1 + 0
    omega)

/-- The reference's transformed features are the linear layer of the features, the transposed weights and the bias row. -/
theorem features_eq (x0 : (⟨S50000x128, .f32⟩ : BufTy).Contents (Elt Ideal)) (x1 : (⟨S128x128, .f32⟩ : BufTy).Contents (Elt Ideal))
    (x2 : (⟨S128, .f32⟩ : BufTy).Contents (Elt Ideal)) :
    val_main_v11 (F := Ideal) x0 x1 x2
      = linear x0 (transpose Cert.KernelIdeal.S128x128 [1, 0] x1 Cert.KernelIdeal.Facts₀.transposes_S128x128_S128x128_1_0)
          (shapeCast _ x2 Cert.KernelIdeal.Facts₀.shapeCasts_S128_S1x128) := by
  funext i
  obtain ⟨p, q, rfl⟩ : ∃ (p : Fin 50000) (q : Fin 128), i = ix2 p q := ⟨i 0, i 1, eq_ix2 i⟩
  rw [linear_ix2, val_main_v11_apply, val_main_v8_apply, val_main_v10_apply, val_main_v9_apply]
  unfold linearAt
  show (_ : EReal) + _ = _
  refine congrArg₂ (· + ·) (Finset.sum_congr rfl fun k _ => ?_) ?_
  · have el : lidx_main_v8 (ix2 p q) k = ix2 p k := funext fun a => Fin.ext (by match a with | ⟨0, _⟩ => rfl | ⟨1, _⟩ => rfl)
    have er : ridx_main_v8 (ix2 p q) k = ix2 k q := funext fun a => Fin.ext (by match a with | ⟨0, _⟩ => rfl | ⟨1, _⟩ => rfl)
    rw [el, er]
    rfl
  · rw [shapeCast_a_1a_apply x2 _ (0 : Fin 1) q]
    exact congrArg x2 (funext fun a => Fin.ext (by match a with | ⟨0, _⟩ => rfl))

/-- The reference's weighted messages are the message table with every row scaled by its weight. -/
theorem messages_eq (X : (⟨S850000x128, .f32⟩ : BufTy).Contents (Elt Ideal)) (e : (⟨S2x800000, .i32⟩ : BufTy).Contents (Elt Ideal)) :
    mulf X (val_main_v40 (F := Ideal) e)
      = scaled X (shapeCast _ (weight e) Cert.KernelIdeal.Facts₀.shapeCasts_S850000_S850000x1) := by
  funext i
  obtain ⟨p, q, rfl⟩ : ∃ (p : Fin 850000) (q : Fin 128), i = ix2 p q := ⟨i 0, i 1, eq_ix2 i⟩
  rw [scaled_ix2, mulf_apply, val_main_v40_apply, val_main_v39_apply, weight_eq]
  unfold scaledAt
  refine congrArg (X (ix2 p q) * ·) ?_
  generalize weight e = w
  rw [column_apply w _ p]
  exact congrArg w (funext fun a => Fin.ext (by match a with | ⟨0, _⟩ => rfl))

/-! ## The result -/

/-- The reference's result is the layer of its arguments. -/
theorem result_eq (x0 : (⟨S50000x128, .f32⟩ : BufTy).Contents (Elt Ideal)) (x1 : (⟨S128x128, .f32⟩ : BufTy).Contents (Elt Ideal))
    (x2 : (⟨S128, .f32⟩ : BufTy).Contents (Elt Ideal)) (x3 : (⟨S2x800000, .i32⟩ : BufTy).Contents (Elt Ideal)) :
    val_main_v44 (F := Ideal) x0 x1 x2 x3 = Cert.KernelIdeal.Whole.layer x0 x1 x2 x3 := by
  unfold val_main_v44 val_main_v41 val_main_v38
  rw [aggregate_eq, gather_eq, features_eq, messages_eq]
  rfl

end Cert.ReferenceIdeal.RefValue

end
-- ==== Proof.lean ====
/-
  A graph-convolution layer: a tiled kernel against its plain reference, equal on the extended reals.

  Both programs compute, from features h (50000 × 128), weights W (128 × 128), a bias b (128) and an edge list
  (2 × 800000 node numbers), the table whose row n is the sum, over the edges into n (self loops added), of
  (h · Wᵀ + b) (source) · rsqrt (degree (source) · degree (destination)).
  The kernel computes h · Wᵀ + b in ten row blocks (a matrix product into a zero accumulator, the operands rounded to
  bf16 first — the identity on the extended reals) and the products with the weights in 125 edge blocks; the
  reference computes each as one whole-array operation. Entry by entry both are the same sums and products, so the
  two results are one function of the arguments (`Whole.layer`); the degrees, weights, gather and scatter-add are the
  same host operations on both sides and are never opened. No step uses that the inputs are finite.
  The ideal pass rewrote nothing, so the kernel's idealization is its own text read on the extended reals.
-/
import proofs.«146218_j27831388078276_1_alg».proof.Defs
import proofs.«146218_j27831388078276_1_alg».proof.Proof.Gen.Kernel
import proofs.«146218_j27831388078276_1_alg».proof.Proof.Gen.Kernel.Skeleton
import proofs.«146218_j27831388078276_1_alg».proof.Proof.Gen.Kernel.Launch
import proofs.«146218_j27831388078276_1_alg».proof.Proof.Gen.Kernel.Points
import proofs.«146218_j27831388078276_1_alg».proof.Proof.Gen.Kernel.Frame
import proofs.«146218_j27831388078276_1_alg».proof.Proof.Gen.KernelIdeal
import proofs.«146218_j27831388078276_1_alg».proof.Proof.Gen.KernelIdeal.Skeleton
import proofs.«146218_j27831388078276_1_alg».proof.Proof.Gen.KernelIdeal.Launch
import proofs.«146218_j27831388078276_1_alg».proof.Proof.Gen.KernelIdeal.Points
import proofs.«146218_j27831388078276_1_alg».proof.Proof.Gen.KernelIdeal.Frame
import proofs.«146218_j27831388078276_1_alg».proof.Proof.Gen.ReferenceIdeal
import proofs.«146218_j27831388078276_1_alg».proof.Proof.Gen.Pre_finite_inputs
import proofs.«146218_j27831388078276_1_alg».proof.Proof.Gen.ReferenceIdeal.Run
import proofs.«146218_j27831388078276_1_alg».proof.Proof.Gen.ReferenceIdeal.Read
import proofs.«146218_j27831388078276_1_alg».proof.Proof.KernelValue
import proofs.«146218_j27831388078276_1_alg».proof.Proof.ReferenceValue
import Idealize.ShloMosaic.Adequacy
import Idealize.ShloMosaic.Init

noncomputable section

namespace Cert.Proof

open Idealize.ShloMosaic Idealize.SL.Sem

/-- The kernel as printed runs to the end without a fault and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the four arguments, the kernel ends at the layer of its arguments and the
    reference at the layer of its own: the same table. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
